-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x28x28 : Shape := ⟨4, ![128, 256, 28, 28]⟩
abbrev S256x16 : Shape := ⟨2, ![256, 16]⟩
abbrev S16x256 : Shape := ⟨2, ![16, 256]⟩
abbrev S_ : Shape := ⟨0, ![]⟩

class Facts : Prop where
  bcast_S_S128x256x28x28 : S_.BroadcastsInDim S128x256x28x28 (![] : Fin 0 → Fin S128x256x28x28.rank)
  reducesTo_S128x256x28x28_S_d0_1_2_3 : S128x256x28x28.ReducesTo [0, 1, 2, 3] S_
  h_S_ : 0 < S_.numel
  bcast_S_S256x16 : S_.BroadcastsInDim S256x16 (![] : Fin 0 → Fin S256x16.rank)
  reducesTo_S256x16_S_d0_1 : S256x16.ReducesTo [0, 1] S_
  bcast_S_S16x256 : S_.BroadcastsInDim S16x256 (![] : Fin 0 → Fin S16x256.rank)
  reducesTo_S16x256_S_d0_1 : S16x256.ReducesTo [0, 1] S_

variable [Facts]

def fn {F : FTy → Type} [FloatOps F] (main_arg0 : FVec F S128x256x28x28 .f32) (main_arg1 : FVec F S256x16 .f32) (main_arg2 : FVec F S16x256 .f32) : IVec S_ 1 :=
  let main_v0 : FVec F S128x256x28x28 .f32 := Host.absf main_arg0
  let main_cst : FVec F S_ .f32 := constant S_ .f32 0x7F800000#32
  let main_v1 : FVec F S128x256x28x28 .f32 := broadcastInDim S128x256x28x28 ![] bcast_S_S128x256x28x28 main_cst
  let main_v2 : IVec S128x256x28x28 1 := cmpf .olt main_v0 main_v1
  let main_c : IVec S_ 1 := constantI S_ 1 1#1
  let main_v3 : IVec S_ 1 := (fun x v => Host.reduce IntOp.andi x v reducesTo_S128x256x28x28_S_d0_1_2_3 h_S_) main_v2 main_c
  let main_v4 : FVec F S256x16 .f32 := Host.absf main_arg1
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16x256 .f32 := Host.absf main_arg2
  let main_cst_2 : FVec F S_ .f32 := constant S_ .f32 0x7F800000#32
  let main_v10 : FVec F S16x256 .f32 := broadcastInDim S16x256 ![] bcast_S_S16x256 main_cst_2
  let main_v11 : IVec S16x256 1 := cmpf .olt main_v9 main_v10
  let main_c_3 : IVec S_ 1 := constantI S_ 1 1#1
  let main_v12 : IVec S_ 1 := (fun x v => Host.reduce IntOp.andi x v reducesTo_S16x256_S_d0_1 h_S_) main_v11 main_c_3
  let main_v13 : IVec S_ 1 := andi main_v8 main_v12
  main_v13
-- ==== Kernel.lean ====
abbrev S128x256x28x28 : Shape := ⟨4, ![128, 256, 28, 28]⟩
abbrev S256x16 : Shape := ⟨2, ![256, 16]⟩
abbrev S16x256 : Shape := ⟨2, ![16, 256]⟩
abbrev S28x28x128x256 : Shape := ⟨4, ![28, 28, 128, 256]⟩
abbrev S784x128x256 : Shape := ⟨3, ![784, 128, 256]⟩
abbrev S784x16x256 : Shape := ⟨3, ![784, 16, 256]⟩
abbrev S16x16 : Shape := ⟨2, ![16, 16]⟩
abbrev S1x16x256 : Shape := ⟨3, ![1, 16, 256]⟩

abbrev nBuf : Space → Nat
  | .hbm => 9
  | .vmem => 6
  | .smem => 0
  | _ => 0

abbrev bufTy : (tb : Table) → Fin (tcTables nBuf tb) → BufTy
  | .hbm, ⟨0, _⟩ => ⟨S128x256x28x28, .f32⟩
  | .hbm, ⟨1, _⟩ => ⟨S256x16, .f32⟩
  | .hbm, ⟨2, _⟩ => ⟨S16x256, .f32⟩
  | .hbm, ⟨3, _⟩ => ⟨S28x28x128x256, .f32⟩
  | .hbm, ⟨4, _⟩ => ⟨S784x128x256, .f32⟩
  | .hbm, ⟨5, _⟩ => ⟨S16x256, .f32⟩
  | .hbm, ⟨6, _⟩ => ⟨S784x128x256, .f32⟩
  | .hbm, ⟨7, _⟩ => ⟨S28x28x128x256, .f32⟩
  | .hbm, ⟨8, _⟩ => ⟨S128x256x28x28, .f32⟩
  | .local _ .vmem, ⟨0, _⟩ => ⟨S784x16x256, .f32⟩
  | .local _ .vmem, ⟨1, _⟩ => ⟨S784x16x256, .f32⟩
  | .local _ .vmem, ⟨2, _⟩ => ⟨S16x256, .f32⟩
  | .local _ .vmem, ⟨3, _⟩ => ⟨S16x256, .f32⟩
  | .local _ .vmem, ⟨4, _⟩ => ⟨S784x16x256, .f32⟩
  | .local _ .vmem, ⟨5, _⟩ => ⟨S784x16x256, .f32⟩
  | _, _ => ⟨S128x256x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S784x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S784x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S128x256x28x28_S28x28x128x256_2_3_0_1 : S128x256x28x28.Transposes [2, 3, 0, 1] S28x28x128x256
  shapeCasts_S28x28x128x256_S784x128x256 : S28x28x128x256.ShapeCasts S784x128x256
  transposes_S256x16_S16x256_1_0 : S256x16.Transposes [1, 0] S16x256
  inb_S784x16x256_S784x16x256_0_0_0 : ∀ a, (![0, 0, 0] : Fin 3 → Nat) a + S784x16x256.size a ≤ S784x16x256.size a
  h_S784x16x256 : 0 < S784x16x256.numel
  shapeCasts_S784x16x256_S784x16x256 : S784x16x256.ShapeCasts S784x16x256
  reduces_S784x16x256_S16x256 : S784x16x256.Reduces [0] S16x256
  inb_S16x256_S16x256_0_0 : ∀ a, (![0, 0] : Fin 2 → Nat) a + S16x256.size a ≤ S16x256.size a
  h_S16x256 : 0 < S16x256.numel
  shapeCasts_S16x256_S16x256 : S16x256.ShapeCasts S16x256
  shapeCasts_S16x256_S1x16x256 : S16x256.ShapeCasts S1x16x256
  broadcasts_S1x16x256_S784x16x256 : S1x16x256.Broadcasts S784x16x256
  shapeCasts_S784x128x256_S28x28x128x256 : S784x128x256.ShapeCasts S28x28x128x256
  transposes_S28x28x128x256_S128x256x28x28_2_3_0_1 : S28x28x128x256.Transposes [2, 3, 0, 1] S128x256x28x28
  dot_S16x256_S16x256_S16x16_1_1_0_0_n_n_wf : DotDims.WF S16x256 S16x256 S16x16 [1] [1] [0] [0] [] []
  dot_S16x16_S16x256_S16x256_1_0_0_1_n_n_wf : DotDims.WF S16x16 S16x256 S16x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S784x16x256.size a ≤ S784x128x256.size a
  hwx0_0 : ∀ i : grid0.Coords, EltTy.bits .f32 = 32 ∨ (Rect.block (s := S784x128x256) S784x16x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .f32 = 32 ∨ (Rect.block (s := S16x256) S16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x256.size a
  hwx0_2 : ∀ i : grid0.Coords, EltTy.bits .f32 = 32 ∨ (Rect.block (s := S16x256) S16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S784x16x256.size a ≤ S784x128x256.size a
  hwx0_3 : ∀ i : grid0.Coords, EltTy.bits .f32 = 32 ∨ (Rect.block (s := S784x128x256) S784x16x256.size (cc0_transform_3 i) (hinb0_3 i)).WholeWords (EltTy.packing .f32)

variable [Facts₀]

def dot_S16x256_S16x256_S16x16_1_1_0_0_n_n : DotDims S16x256 S16x256 S16x16 where
  lhsContracting := [1]
  rhsContracting := [1]
  lhsNonContracting := [0]
  rhsNonContracting := [0]
  lhsBatch := []
  rhsBatch := []
  wf := dot_S16x256_S16x256_S16x16_1_1_0_0_n_n_wf
def dot_S16x16_S16x256_S16x256_1_0_0_1_n_n : DotDims S16x16 S16x256 S16x256 where
  lhsContracting := [1]
  rhsContracting := [0]
  lhsNonContracting := [0]
  rhsNonContracting := [1]
  lhsBatch := []
  rhsBatch := []
  wf := dot_S16x16_S16x256_S16x256_1_0_0_1_n_n_wf

abbrev win0_0 : Pipeline.Window sig grid0 :=
  Pipeline.Window.ofSpec (Memref.whole main_v1) S784x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S784x16x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x256x28x28 : Shape := ⟨4, ![128, 256, 28, 28]⟩
abbrev S256x16 : Shape := ⟨2, ![256, 16]⟩
abbrev S16x256 : Shape := ⟨2, ![16, 256]⟩
abbrev S128x256x784 : Shape := ⟨3, ![128, 256, 784]⟩
abbrev S128x784x256 : Shape := ⟨3, ![128, 784, 256]⟩
abbrev S4x784x256 : Shape := ⟨3, ![4, 784, 256]⟩
abbrev S4x256 : Shape := ⟨2, ![4, 256]⟩
abbrev S4x16 : Shape := ⟨2, ![4, 16]⟩
abbrev S4x1x256 : Shape := ⟨3, ![4, 1, 256]⟩

abbrev nBuf : Space → Nat
  | .hbm => 8
  | .vmem => 6
  | .smem => 0
  | _ => 0

abbrev bufTy : (tb : Table) → Fin (tcTables nBuf tb) → BufTy
  | .hbm, ⟨0, _⟩ => ⟨S128x256x28x28, .f32⟩
  | .hbm, ⟨1, _⟩ => ⟨S256x16, .f32⟩
  | .hbm, ⟨2, _⟩ => ⟨S16x256, .f32⟩
  | .hbm, ⟨3, _⟩ => ⟨S128x256x784, .f32⟩
  | .hbm, ⟨4, _⟩ => ⟨S128x784x256, .f32⟩
  | .hbm, ⟨5, _⟩ => ⟨S128x784x256, .f32⟩
  | .hbm, ⟨6, _⟩ => ⟨S128x256x784, .f32⟩
  | .hbm, ⟨7, _⟩ => ⟨S128x256x28x28, .f32⟩
  | .local _ .vmem, ⟨0, _⟩ => ⟨S4x784x256, .f32⟩
  | .local _ .vmem, ⟨1, _⟩ => ⟨S4x784x256, .f32⟩
  | .local _ .vmem, ⟨2, _⟩ => ⟨S256x16, .f32⟩
  | .local _ .vmem, ⟨3, _⟩ => ⟨S16x256, .f32⟩
  | .local _ .vmem, ⟨4, _⟩ => ⟨S4x784x256, .f32⟩
  | .local _ .vmem, ⟨5, _⟩ => ⟨S4x784x256, .f32⟩
  | _, _ => ⟨S128x256x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x784x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x784x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S128x256x28x28_S128x256x784 : S128x256x28x28.ShapeCasts S128x256x784
  transposes_S128x256x784_S128x784x256_0_2_1 : S128x256x784.Transposes [0, 2, 1] S128x784x256
  inb_S4x784x256_S4x784x256_0_0_0 : ∀ a, (![0, 0, 0] : Fin 3 → Nat) a + S4x784x256.size a ≤ S4x784x256.size a
  h_S4x784x256 : 0 < S4x784x256.numel
  shapeCasts_S4x784x256_S4x784x256 : S4x784x256.ShapeCasts S4x784x256
  reduces_S4x784x256_S4x256 : S4x784x256.Reduces [1] S4x256
  inb_S256x16_S256x16_0_0 : ∀ a, (![0, 0] : Fin 2 → Nat) a + S256x16.size a ≤ S256x16.size a
  h_S256x16 : 0 < S256x16.numel
  inb_S16x256_S16x256_0_0 : ∀ a, (![0, 0] : Fin 2 → Nat) a + S16x256.size a ≤ S16x256.size a
  h_S16x256 : 0 < S16x256.numel
  shapeCasts_S4x256_S4x1x256 : S4x256.ShapeCasts S4x1x256
  broadcasts_S4x1x256_S4x784x256 : S4x1x256.Broadcasts S4x784x256
  transposes_S128x784x256_S128x256x784_0_2_1 : S128x784x256.Transposes [0, 2, 1] S128x256x784
  shapeCasts_S128x256x784_S128x256x28x28 : S128x256x784.ShapeCasts S128x256x28x28
  dot_S4x256_S256x16_S4x16_1_0_0_1_n_n_wf : DotDims.WF S4x256 S256x16 S4x16 [1] [0] [0] [1] [] []
  dot_S4x16_S16x256_S4x256_1_0_0_1_n_n_wf : DotDims.WF S4x16 S16x256 S4x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x784x256.size a ≤ S128x784x256.size a
  hwx0_0 : ∀ i : grid0.Coords, EltTy.bits .f32 = 32 ∨ (Rect.block (s := S128x784x256) S4x784x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x256.size a
  hwx0_2 : ∀ i : grid0.Coords, EltTy.bits .f32 = 32 ∨ (Rect.block (s := S16x256) S16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x784x256.size a ≤ S128x784x256.size a
  hwx0_3 : ∀ i : grid0.Coords, EltTy.bits .f32 = 32 ∨ (Rect.block (s := S128x784x256) S4x784x256.size (cc0_transform_3 i) (hinb0_3 i)).WholeWords (EltTy.packing .f32)

variable [Facts₀]

def dot_S4x256_S256x16_S4x16_1_0_0_1_n_n : DotDims S4x256 S256x16 S4x16 where
  lhsContracting := [1]
  rhsContracting := [0]
  lhsNonContracting := [0]
  rhsNonContracting := [1]
  lhsBatch := []
  rhsBatch := []
  wf := dot_S4x256_S256x16_S4x16_1_0_0_1_n_n_wf
def dot_S4x16_S16x256_S4x256_1_0_0_1_n_n : DotDims S4x16 S16x256 S4x256 where
  lhsContracting := [1]
  rhsContracting := [0]
  lhsNonContracting := [0]
  rhsNonContracting := [1]
  lhsBatch := []
  rhsBatch := []
  wf := dot_S4x16_S16x256_S4x256_1_0_0_1_n_n_wf

abbrev win0_0 : Pipeline.Window sig grid0 :=
  Pipeline.Window.ofSpec (Memref.whole main_v1) S4x784x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4x784x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.SESpec.lean ====
/-
  The squeeze-and-excitation block over the extended reals, stated once for both programs.

  For an image `b` the block pools every channel over the 784 spatial positions (the sum times the f32 literal nearest
  1/784), sends the 256 pooled channels through a 256×16 linear map and a rectifier, then through a 16×256 linear map
  and the logistic function, and scales every entry of channel `c` by that channel's gate. Both programs compute this
  function; they differ only in how they lay the array out in memory and in how many images a grid point takes.
-/
import Idealize.ShloMosaic.PureOps.Ideal
import Idealize.ShloMosaic.PureOps.Ideal.Laws
import Idealize.ShloMosaic.Lib.ValueIdx

noncomputable section

namespace Cert.SE

open Idealize.ShloMosaic Idealize.ShloMosaic.ValueIdx
open scoped BigOperators

/-- The gate of channel `c` of one image: `x s c'` is the image's entry at spatial position `s` and channel `c'`,
    `w1` and `w2` the two linear maps. The pooled mean is the sum over the positions times the literal; the hidden
    layer is rectified at zero; the gate is the logistic function of the second product. -/
def gate (x : Fin 784 → Fin 256 → EReal) (w1 : Fin 256 → Fin 16 → EReal) (w2 : Fin 16 → Fin 256 → EReal)
    (c : Fin 256) : EReal :=
  Ideal.logistic (∑ r : Fin 16,
    max (∑ c' : Fin 256, ((∑ s : Fin 784, x s c') * Ideal.ofBits .f32 0x3AA72F05#32) * w1 c' r)
        (Ideal.ofBits .f32 0x00000000#32) * w2 r c)

/-- Spatial position `s` of the 784 is row `s / 28` … -/
def rowOf (s : Fin 784) : Fin 28 := ⟨s.val / 28, by have := s.isLt; omega⟩
/-- … and column `s % 28` of the 28 × 28 image. -/
def colOf (s : Fin 784) : Fin 28 := ⟨s.val % 28, Nat.mod_lt _ (by decide)⟩
/-- Row `h`, column `w` is position `28 h + w`. -/
def posOf (h w : Fin 28) : Fin 784 := ⟨h.val * 28 + w.val, by have := h.isLt; have := w.isLt; omega⟩

theorem rowOf_posOf (h w : Fin 28) : rowOf (posOf h w) = h :=
  Fin.ext (by show (h.val * 28 + w.val) / 28 = h.val; have := w.isLt; omega)
theorem colOf_posOf (h w : Fin 28) : colOf (posOf h w) = w :=
  Fin.ext (by show (h.val * 28 + w.val) % 28 = w.val; have := w.isLt; omega)

/-- The block's result at image `b`, channel `c`, row `h`, column `w`. -/
def outAt (X : (⟨4, ![128, 256, 28, 28]⟩ : Shape).Idx → EReal) (W1 : (⟨2, ![256, 16]⟩ : Shape).Idx → EReal)
    (W2 : (⟨2, ![16, 256]⟩ : Shape).Idx → EReal) (b : Fin 128) (c : Fin 256) (h w : Fin 28) : EReal :=
  X (ix4 b c h w) * gate (fun s c' => X (ix4 b c' (rowOf s) (colOf s))) (fun c' r => W1 (ix2 c' r)) (fun r c' => W2 (ix2 r c')) c

/-- The block's result as one array. -/
def out (X : (⟨4, ![128, 256, 28, 28]⟩ : Shape).Idx → EReal) (W1 : (⟨2, ![256, 16]⟩ : Shape).Idx → EReal)
    (W2 : (⟨2, ![16, 256]⟩ : Shape).Idx → EReal) : (⟨4, ![128, 256, 28, 28]⟩ : Shape).Idx → EReal :=
  fun i => outAt X W1 W2 (i 0) (i 1) (i 2) (i 3)

theorem out_ix4 (X : (⟨4, ![128, 256, 28, 28]⟩ : Shape).Idx → EReal) (W1 : (⟨2, ![256, 16]⟩ : Shape).Idx → EReal)
    (W2 : (⟨2, ![16, 256]⟩ : Shape).Idx → EReal) (b : Fin 128) (c : Fin 256) (h w : Fin 28) :
    out X W1 W2 (ix4 b c h w) = outAt X W1 W2 b c h w := rfl

end Cert.SE

end
-- ==== Proof.KernelPayload.lean ====
/-
  What one grid point of the kernel stores, read at an index, over the extended reals.

  The body loads a [784, 16, 256] block (positions × sixteen images × channels), sums it over the positions, scales
  by the literal, multiplies by the first weight matrix (held transposed, so the product contracts both operands on
  their channel axis), rectifies, multiplies by the second weight matrix, applies the logistic function and scales
  the loaded block by the result broadcast over the positions. At an index (s, bb, c) that is the loaded entry times
  `Cert.SE.gate` of image `bb`'s slab at channel `c`: a lane reduction over one axis is the sum over that axis'
  coordinates, and a product into a zero accumulator is the sum over the contracted axis.
-/
import proofs.«108050_g2000206377233757_pallasbulk_214_10_alg».proof.Proof.Gen.KernelIdeal.Skeleton
import proofs.«108050_g2000206377233757_pallasbulk_214_10_alg».proof.Proof.SESpec
import Idealize.ShloMosaic.Lib.Pipeline.Value
import Idealize.ShloMosaic.Lib.ValueLayout
import Idealize.ShloMosaic.PureOps.Ideal.Laws

noncomputable section

namespace Cert.KernelIdeal.SEPay

open Idealize.ShloMosaic Idealize.ShloMosaic.ValueIdx Cert.KernelIdeal Cert.KernelIdeal.Gen
open scoped BigOperators

/-- The first product's dimension numbers: both operands contract their second axis. -/
abbrev D1 := dot_S16x256_S16x256_S16x16_1_1_0_0_n_n
/-- The second product's dimension numbers: a plain rows × columns product. -/
abbrev D2 := dot_S16x16_S16x256_S16x256_1_0_0_1_n_n

theorem D1_lhs0 (j : S16x16.Idx) (k : D1.contr.Idx) : (D1.lhsIdx j k 0 : ℕ) = j 0 := by
  simp [DotDims.lhsIdx, D1, dot_S16x256_S16x256_S16x16_1_1_0_0_n_n]; rfl
theorem D1_lhs1 (j : S16x16.Idx) (k : D1.contr.Idx) : (D1.lhsIdx j k 1 : ℕ) = k ⟨0, by decide⟩ := by
  simp [DotDims.lhsIdx, D1, dot_S16x256_S16x256_S16x16_1_1_0_0_n_n]; rfl
theorem D1_rhs0 (j : S16x16.Idx) (k : D1.contr.Idx) : (D1.rhsIdx j k 0 : ℕ) = j 1 := by
  simp [DotDims.rhsIdx, D1, dot_S16x256_S16x256_S16x16_1_1_0_0_n_n]; rfl
theorem D1_rhs1 (j : S16x16.Idx) (k : D1.contr.Idx) : (D1.rhsIdx j k 1 : ℕ) = k ⟨0, by decide⟩ := by
  simp [DotDims.rhsIdx, D1, dot_S16x256_S16x256_S16x16_1_1_0_0_n_n]; rfl

theorem D2_lhs0 (j : S16x256.Idx) (k : D2.contr.Idx) : (D2.lhsIdx j k 0 : ℕ) = j 0 := by
  simp [DotDims.lhsIdx, D2, dot_S16x16_S16x256_S16x256_1_0_0_1_n_n]; rfl
theorem D2_lhs1 (j : S16x256.Idx) (k : D2.contr.Idx) : (D2.lhsIdx j k 1 : ℕ) = k ⟨0, by decide⟩ := by
  simp [DotDims.lhsIdx, D2, dot_S16x16_S16x256_S16x256_1_0_0_1_n_n]; rfl
theorem D2_rhs0 (j : S16x256.Idx) (k : D2.contr.Idx) : (D2.rhsIdx j k 0 : ℕ) = k ⟨0, by decide⟩ := by
  simp [DotDims.rhsIdx, D2, dot_S16x16_S16x256_S16x256_1_0_0_1_n_n]; rfl
theorem D2_rhs1 (j : S16x256.Idx) (k : D2.contr.Idx) : (D2.rhsIdx j k 1 : ℕ) = j 1 := by
  simp [DotDims.rhsIdx, D2, dot_S16x16_S16x256_S16x256_1_0_0_1_n_n]; rfl

/-- The first product at row `bb`, column `r`: the sum over the 256 channels. -/
theorem matmul1_apply (a : FVec Ideal S16x256 .f32) (w : FVec Ideal S16x256 .f32) (bb r : Fin 16) :
    matmul D1 none a w (constant S16x16 .f32 0x00000000#32) (ix2 bb r) = ∑ c' : Fin 256, a (ix2 bb c') * w (ix2 r c') := by
  refine (Ideal.matmul_constant_zero_apply D1 none a w (ix2 bb r)).trans ?_
  rw [← Equiv.sum_comp (contrEquiv1 D1 256 rfl rfl).symm]
  refine Finset.sum_congr rfl fun c' _ => ?_
  have hl : D1.lhsIdx (ix2 bb r) ((contrEquiv1 D1 256 rfl rfl).symm c') = ix2 bb c' := by
    funext ax; apply Fin.ext
    match ax with
    | ⟨0, _⟩ => exact D1_lhs0 _ _
    | ⟨1, _⟩ => exact (D1_lhs1 _ _).trans (contrEquiv1_symm_val D1 256 rfl rfl c')
  have hr : D1.rhsIdx (ix2 bb r) ((contrEquiv1 D1 256 rfl rfl).symm c') = ix2 r c' := by
    funext ax; apply Fin.ext
    match ax with
    | ⟨0, _⟩ => exact D1_rhs0 _ _
    | ⟨1, _⟩ => exact (D1_rhs1 _ _).trans (contrEquiv1_symm_val D1 256 rfl rfl c')
  rw [hl, hr]

/-- The second product at row `bb`, channel `c`: the sum over the 16 hidden units. -/
theorem matmul2_apply (a : FVec Ideal S16x16 .f32) (w : FVec Ideal S16x256 .f32) (bb : Fin 16) (c : Fin 256) :
    matmul D2 none a w (constant S16x256 .f32 0x00000000#32) (ix2 bb c) = ∑ r : Fin 16, a (ix2 bb r) * w (ix2 r c) := by
  refine (Ideal.matmul_constant_zero_apply D2 none a w (ix2 bb c)).trans ?_
  rw [← Equiv.sum_comp (contrEquiv1 D2 16 rfl rfl).symm]
  refine Finset.sum_congr rfl fun r _ => ?_
  have hl : D2.lhsIdx (ix2 bb c) ((contrEquiv1 D2 16 rfl rfl).symm r) = ix2 bb r := by
    funext ax; apply Fin.ext
    match ax with
    | ⟨0, _⟩ => exact D2_lhs0 _ _
    | ⟨1, _⟩ => exact (D2_lhs1 _ _).trans (contrEquiv1_symm_val D2 16 rfl rfl r)
  have hr : D2.rhsIdx (ix2 bb c) ((contrEquiv1 D2 16 rfl rfl).symm r) = ix2 r c := by
    funext ax; apply Fin.ext
    match ax with
    | ⟨0, _⟩ => exact (D2_rhs0 _ _).trans (contrEquiv1_symm_val D2 16 rfl rfl r)
    | ⟨1, _⟩ => exact D2_rhs1 _ _
  rw [hl, hr]

/-- The pooling sum at row `bb`, channel `c'`: the sum over the 784 positions. -/
theorem pool_apply (x : FVec Ideal S784x16x256 .f32) (h : S784x16x256.Reduces [0] S16x256)
    (bb : Fin 16) (c' : Fin 256) :
    multiReduction .add [0] S16x256 x 0x00000000#32 h (.inl rfl) rfl (ix2 bb c') = ∑ s : Fin 784, x (ix3 s bb c') := by
  refine (Ideal.multiReduction_add_single x 0x00000000#32 h (.inl rfl) rfl (ix2 bb c')).trans ?_
  refine Finset.sum_congr rfl fun s _ => ?_
  congr 1
  funext ax
  match ax with
  | ⟨0, _⟩ => rfl
  | ⟨1, _⟩ => rfl
  | ⟨2, _⟩ => rfl

/-- The body's stored value at position `s`, row `bb`, channel `c` of the block: the loaded entry times the gate of
    image `bb` of the block at channel `c`. -/
theorem pay_apply (x0 : Vec Ideal S784x16x256 .f32) (x1 x2 : Vec Ideal S16x256 .f32) (s : Fin 784) (bb : Fin 16) (c : Fin 256) :
    k0_pay1 x0 x1 x2 (ix3 s bb c)
      = x0 (ix3 s bb c) * Cert.SE.gate (fun s' c' => x0 (ix3 s' bb c')) (fun c' r => x1 (ix2 r c')) (fun r c' => x2 (ix2 r c')) c := by
  unfold k0_pay1
  dsimp only
  rw [mulf_apply, shapeCast_self, shapeCast_self]
  refine congrArg (x0 (ix3 s bb c) * ·) ?_
  refine (broadcastTo_apply _ _ (ix3 s bb c) (ix3 (0 : Fin 1) bb c) (fun ax => ?_)).trans ?_
  · match ax with
    | ⟨0, _⟩ => rfl
    | ⟨1, _⟩ => rfl
    | ⟨2, _⟩ => rfl
  refine (shapeCast_ab_1ab_apply _ _ (0 : Fin 1) bb c).trans ?_
  show Ideal.logistic _ = _
  unfold Cert.SE.gate
  refine congrArg Ideal.logistic ?_
  refine (matmul2_apply _ _ bb c).trans ?_
  refine Finset.sum_congr rfl fun r _ => ?_
  refine congrArg (· * x2 (ix2 r c)) ?_
  show max _ _ = _
  refine congrArg (max · (Ideal.ofBits .f32 0x00000000#32)) ?_
  refine (matmul1_apply _ _ bb r).trans ?_
  refine Finset.sum_congr rfl fun c' _ => ?_
  refine congrArg (· * x1 (ix2 r c')) ?_
  show _ * _ = _
  refine congrArg (· * Ideal.ofBits .f32 0x3AA72F05#32) ?_
  exact pool_apply _ _ bb c'

end Cert.KernelIdeal.SEPay

end
-- ==== Proof.KernelValue.lean ====
/-
  The kernel's whole program, read as a value over the extended reals: its result array is the squeeze-and-excitation
  block `Cert.SE.out` of its three arguments.

  The program lays the input out as [784, 128, 256] (position, image, channel), transposes the first weight matrix,
  and runs eight grid points of sixteen images each. Point `t` reads images 16 t … 16 t + 15 at every position and
  channel and writes the same indices of the result; what it writes is the region's result array `region` read
  through that block, because the gate of an image depends on that image's own slab only. The sixteen-image blocks
  cover the array, so after the run the array is `region`. The two host lines after the region view it as
  (row, column, image, channel) and transpose it back; position 28 h + w is row h, column w.
-/
import proofs.«108050_g2000206377233757_pallasbulk_214_10_alg».proof.Proof.Gen.KernelIdeal.Frame
import proofs.«108050_g2000206377233757_pallasbulk_214_10_alg».proof.Proof.KernelPayload
import Idealize.ShloMosaic.Lib.Pipeline.Value

noncomputable section

namespace Cert.KernelIdeal.SEValue

open Idealize.ShloMosaic Idealize.ShloMosaic.TcCoe Idealize.ShloMosaic.ValueIdx Idealize.SL.Sem
open Cert.KernelIdeal Cert.KernelIdeal.Gen
open scoped BigOperators

variable (m : (ℓ : Loc nD τ sig) → Buf (Elt Ideal) ℓ) (ρ : Dev nD → PrngReg)

/-- The region's result at position `s`, image `B`, channel `c`, from the three arrays the region reads: the
    re-laid input [784, 128, 256], the first weight matrix transposed [16, 256] and the second [16, 256]. -/
def regionAt (A1 : S784x128x256.Idx → EReal) (A2 A3 : S16x256.Idx → EReal) (s : Fin 784) (B : Fin 128) (c : Fin 256) : EReal :=
  A1 (ix3 s B c) * Cert.SE.gate (fun s' c' => A1 (ix3 s' B c')) (fun c' r => A2 (ix2 r c')) (fun r c' => A3 (ix2 r c')) c

/-- The region's result array. -/
def region (A1 : S784x128x256.Idx → EReal) (A2 A3 : S16x256.Idx → EReal) : S784x128x256.Idx → EReal :=
  fun i => regionAt A1 A2 A3 (i 0) (i 1) (i 2)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the input and output blocks of point `t` are the sixteen images from
    `16 t` on, whole in the other two axes; the weight blocks are the whole matrices. -/
theorem idx_facts : ∀ t : Fin cfg0.N,
    win0_0.index t (0 : Fin 3) = 0 ∧ win0_0.index t (1 : Fin 3) = t.val ∧ win0_0.index t (2 : Fin 3) = 0
    ∧ win0_3.index t (0 : Fin 3) = 0 ∧ win0_3.index t (1 : Fin 3) = t.val ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0 ∧ t.val < 8 :=
  (by decide +kernel : ∀ t : Fin grid0.N, _)

/-- Image `bb` of point `t`'s block is image `16 t + bb` of the array. -/
def imageAt (t : Fin cfg0.N) (bb : Fin 16) : Fin 128 :=
  ⟨t.val * 16 + bb.val, by have := (idx_facts t).2.2.2.2.2.2.2.2.2.2; have := bb.isLt; omega⟩

/-- Where the entries of point `t`'s input block sit in the re-laid input. -/
theorem emb0 (t : Fin cfg0.N) (s : Fin 784) (bb : Fin 16) (cc : Fin 256) :
    ((cfg0.win 0).blk t).view.emb (ix3 s bb cc) = ix3 s (imageAt t bb) cc := by
  obtain ⟨e0, e1, e2, -⟩ := idx_facts t
  funext a; apply Fin.ext
  match a with
  | ⟨0, _⟩ => show win0_0.index t (0 : Fin 3) * 784 + 1 * s.val = s.val; omega
  | ⟨1, _⟩ => show win0_0.index t (1 : Fin 3) * 16 + 1 * bb.val = t.val * 16 + bb.val; omega
  | ⟨2, _⟩ => show win0_0.index t (2 : Fin 3) * 256 + 1 * cc.val = cc.val; omega

/-- The output block of point `t` sits over the same indices of the region's result array. -/
theorem emb3 (t : Fin cfg0.N) (s : Fin 784) (bb : Fin 16) (cc : Fin 256) :
    ((cfg0.win 3).blk t).view.emb (ix3 s bb cc) = ix3 s (imageAt t bb) cc := by
  obtain ⟨-, -, -, e0, e1, e2, -⟩ := idx_facts t
  funext a; apply Fin.ext
  match a with
  | ⟨0, _⟩ => show win0_3.index t (0 : Fin 3) * 784 + 1 * s.val = s.val; omega
  | ⟨1, _⟩ => show win0_3.index t (1 : Fin 3) * 16 + 1 * bb.val = t.val * 16 + bb.val; omega
  | ⟨2, _⟩ => show win0_3.index t (2 : Fin 3) * 256 + 1 * cc.val = cc.val; omega

/-- The weight blocks are the whole matrices. -/
theorem emb1 (t : Fin cfg0.N) (r : Fin 16) (cc : Fin 256) :
    ((cfg0.win 1).blk t).view.emb (ix2 r cc) = ix2 r cc := by
  obtain ⟨-, -, -, -, -, -, e0, e1, -⟩ := idx_facts t
  funext a; apply Fin.ext
  match a with
  | ⟨0, _⟩ => show win0_1.index t (0 : Fin 2) * 16 + 1 * r.val = r.val; omega
  | ⟨1, _⟩ => show win0_1.index t (1 : Fin 2) * 256 + 1 * cc.val = cc.val; omega
theorem emb2 (t : Fin cfg0.N) (r : Fin 16) (cc : Fin 256) :
    ((cfg0.win 2).blk t).view.emb (ix2 r cc) = ix2 r cc := by
  obtain ⟨-, -, -, -, -, -, -, -, e0, e1, -⟩ := idx_facts t
  funext a; apply Fin.ext
  match a with
  | ⟨0, _⟩ => show win0_2.index t (0 : Fin 2) * 16 + 1 * r.val = r.val; omega
  | ⟨1, _⟩ => show win0_2.index t (1 : Fin 2) * 256 + 1 * cc.val = cc.val; omega

/-- The input block of point `t` read at an index is the re-laid input there. -/
theorem read0 (c : Dev nD) (t : Fin cfg0.N) (s : Fin 784) (bb : Fin 16) (cc : Fin 256) :
    iblk m c 0 t (ix3 s bb cc) = V m c main_v1 (ix3 s (imageAt t bb) cc) := by
  show V m c main_v1 (((cfg0.win 0).blk t).view.emb (ix3 s bb cc)) = _
  rw [emb0]
theorem read1 (c : Dev nD) (t : Fin cfg0.N) (r : Fin 16) (cc : Fin 256) :
    iblk m c 1 t (ix2 r cc) = V m c main_v2 (ix2 r cc) := by
  show V m c main_v2 (((cfg0.win 1).blk t).view.emb (ix2 r cc)) = _
  rw [emb1]
theorem read2 (c : Dev nD) (t : Fin cfg0.N) (r : Fin 16) (cc : Fin 256) :
    iblk m c 2 t (ix2 r cc) = V m c main_arg2 (ix2 r cc) := by
  show V m c main_arg2 (((cfg0.win 2).blk t).view.emb (ix2 r cc)) = _
  rw [emb2]

/-- What point `t` writes back is block `t` of the region's result array. -/
theorem flushed3_eq (c : Dev nD) (t : Fin cfg0.N) :
    (dats m 0 c).flushed 3 t
      = ((cfg0.win 3).blk t).view.read (Elt Ideal) (region (V m c main_v1) (V m c main_v2) (V m c main_arg2)) := by
  show (cfg0.win 3).cut (grid0.coords t) ((dats m 0 c).after 3 t) = _
  rw [after0_3]
  unfold out0_3
  rw [View.canon_unit_zero hz3]
  simp only [View.ld_unit_zero (S := S784x16x256) hz3, View.ld_unit_zero (S := S16x256) hz2]
  funext j
  obtain ⟨s, bb, cc, rfl⟩ : ∃ (s : Fin 784) (bb : Fin 16) (cc : Fin 256), j = ix3 s bb cc := ⟨j 0, j 1, j 2, eq_ix3 j⟩
  show k0_pay1 (iblk m c 0 t) (iblk m c 1 t) (iblk m c 2 t) (ix3 s bb cc)
    = region (V m c main_v1) (V m c main_v2) (V m c main_arg2) (((cfg0.win 3).blk t).view.emb (ix3 s bb cc))
  rw [emb3]
  refine (Cert.KernelIdeal.SEPay.pay_apply (iblk m c 0 t) (iblk m c 1 t) (iblk m c 2 t) s bb cc).trans ?_
  simp only [read0 m c t, read1 m c t, read2 m c t]
  rfl

/-- An index of the region's result array is in point `t`'s block iff each coordinate is in the block's range. -/
theorem mem_blk3 (t : Fin cfg0.N) (i : S784x128x256.Idx) :
    i ∈ ((cfg0.win 3).blk t).view.set ↔ ∀ a : Fin 3, win0_3.index t a * S784x16x256.size a ≤ (i a).val ∧ (i a).val < win0_3.index t a * S784x16x256.size a + S784x16x256.size a := by
  show i ∈ ((View.whole main_v3).slice (win0_3.rect t)).set ↔ _
  rw [View.set_slice_whole, Rect.mem_set_unit]
  exact Iff.rfl

/-- Every index of the region's result array is in the block of the point that takes its image: point `B / 16`. -/
theorem cover3 (i : S784x128x256.Idx) :
    ∃ t : Fin cfg0.N, (cfg0.win 3).flush t = true ∧ i ∈ ((cfg0.win 3).blk t).view.set := by
  have hi0 : (i 0).val < 784 := (i 0).isLt
  have hi1 : (i 1).val < 128 := (i 1).isLt
  have hi2 : (i 2).val < 256 := (i 2).isLt
  have hN : cfg0.N = 8 := N_0
  let t : Fin cfg0.N := ⟨(i 1).val / 16, by rw [hN]; omega⟩
  have ht : t.val = (i 1).val / 16 := rfl
  obtain ⟨-, -, -, e0, e1, e2, -⟩ := idx_facts t
  refine ⟨t, flush0_3 t, ?_⟩
  rw [mem_blk3]
  intro a
  match a with
  | ⟨0, _⟩ => show win0_3.index t (0 : Fin 3) * 784 ≤ (i 0).val ∧ (i 0).val < win0_3.index t (0 : Fin 3) * 784 + 784; omega
  | ⟨1, _⟩ => show win0_3.index t (1 : Fin 3) * 16 ≤ (i 1).val ∧ (i 1).val < win0_3.index t (1 : Fin 3) * 16 + 16; omega
  | ⟨2, _⟩ => show win0_3.index t (2 : Fin 3) * 256 ≤ (i 2).val ∧ (i 2).val < win0_3.index t (2 : Fin 3) * 256 + 256; omega

/-- The region's result array after the run. -/
theorem final3 (c : Dev nD) :
    (dats m 0 c).arrAt 3 cfg0.N = region (V m c main_v1) (V m c main_v2) (V m c main_arg2) :=
  (dats m 0 c).arrAt_eq_of_cover 3 _ (fun t _ => flushed3_eq m c t) cover3

/-- The re-laid input the region reads: the input transposed to (row, column, image, channel), rows and columns
    flattened to the 784 positions. -/
theorem V_v1 (c : Dev nD) :
    (V m c main_v1 : S784x128x256.Idx → EReal)
      = shapeCast S784x128x256 (transpose S28x28x128x256 [2, 3, 0, 1] (m ((c : Thread nD τ).loc main_arg0))
          Facts₀.transposes_S128x256x28x28_S28x28x128x256_2_3_0_1) Facts₀.shapeCasts_S28x28x128x256_S784x128x256 := by
  show StableHlo.after hostOps0 (fun b => m (c, b)) (Proc.devRef .tc main_v1) = _
  after_results
  try rfl

/-- The first weight matrix as the region reads it: transposed. -/
theorem V_v2 (c : Dev nD) :
    (V m c main_v2 : S16x256.Idx → EReal)
      = transpose S16x256 [1, 0] (m ((c : Thread nD τ).loc main_arg1)) Facts₀.transposes_S256x16_S16x256_1_0 := by
  show StableHlo.after hostOps0 (fun b => m (c, b)) (Proc.devRef .tc main_v2) = _
  after_results
  try rfl

/-- Position `s`, image `B`, channel `cc` of the re-laid input is the input at image `B`, channel `cc`, row
    `s / 28`, column `s % 28`. -/
theorem V_v1_apply (c : Dev nD) (s : Fin 784) (B : Fin 128) (cc : Fin 256) :
    V m c main_v1 (ix3 s B cc)
      = m ((c : Thread nD τ).loc main_arg0) (ix4 B cc (Cert.SE.rowOf s) (Cert.SE.colOf s)) := by
  rw [V_v1]
  refine (shapeCast_apply _ _ (ix3 s B cc) (ix4 (Cert.SE.rowOf s) (Cert.SE.colOf s) B cc) ?_).trans ?_
  · rw [Shape.rowMajor_val_four, Shape.rowMajor_val_three]
    show ((s.val / 28 * 28 + s.val % 28) * 128 + B.val) * 256 + cc.val = (s.val * 128 + B.val) * 256 + cc.val
    omega
  · exact transpose_apply _ _ _ _ _ fun b => match b with
      | ⟨0, _⟩ => rfl | ⟨1, _⟩ => rfl | ⟨2, _⟩ => rfl | ⟨3, _⟩ => rfl

/-- Row `r`, column `c'` of the transposed first weight matrix is the matrix at (`c'`, `r`). -/
theorem V_v2_apply (c : Dev nD) (r : Fin 16) (c' : Fin 256) :
    V m c main_v2 (ix2 r c') = m ((c : Thread nD τ).loc main_arg1) (ix2 c' r) := by
  rw [V_v2]
  exact transpose_ix2_apply _ _ r c'

/-- The program's result: the region's result array viewed as (row, column, image, channel) and transposed back to
    (image, channel, row, column). -/
theorem tail_eq (c : Dev nD) :
    (Pipeline.afterTail₀ cfgs (dats m) 0 (V0 m) [hostOps1] c main_v5 : S128x256x28x28.Idx → EReal)
      = transpose S128x256x28x28 [2, 3, 0, 1]
          (shapeCast S28x28x128x256 ((dats m 0 c).arrAt 3 cfg0.N) Facts₀.shapeCasts_S784x128x256_S28x28x128x256)
          Facts₀.transposes_S28x28x128x256_S128x256x28x28_2_3_0_1 := by
  unfold Pipeline.afterTail₀
  show StableHlo.after hostOps1 _ (Proc.devRef .tc main_v5) = _
  after_results
  rw [show Pipeline.withArrays (cfgs 0).spec c (V0 m c) (fun w => (dats m 0 c).arrAt w (cfgs 0).N) (Proc.devRef .tc main_v3)
      = (dats m 0 c).arrAt 3 cfg0.N from Pipeline.withArrays_arr spec0 launch0.win.arr_inj c _ _ 3]
  rfl

/-- The program's result is the squeeze-and-excitation block of its three arguments. -/
theorem result_eq (c : Dev nD) :
    (Pipeline.afterTail₀ cfgs (dats m) 0 (V0 m) [hostOps1] c main_v5 : S128x256x28x28.Idx → EReal)
      = Cert.SE.out (m ((c : Thread nD τ).loc main_arg0)) (m ((c : Thread nD τ).loc main_arg1)) (m ((c : Thread nD τ).loc main_arg2)) := by
  rw [tail_eq, final3]
  funext i
  obtain ⟨b, cc, h, w, rfl⟩ : ∃ (b : Fin 128) (cc : Fin 256) (h w : Fin 28), i = ix4 b cc h w := ⟨i 0, i 1, i 2, i 3, eq_ix4 i⟩
  refine (transpose_apply _ _ _ (ix4 b cc h w) (ix4 h w b cc) fun a => match a with
    | ⟨0, _⟩ => rfl | ⟨1, _⟩ => rfl | ⟨2, _⟩ => rfl | ⟨3, _⟩ => rfl).trans ?_
  refine (shapeCast_apply _ _ (ix4 h w b cc) (ix3 (Cert.SE.posOf h w) b cc) ?_).trans ?_
  · rw [Shape.rowMajor_val_three, Shape.rowMajor_val_four]
    rfl
  show regionAt (V m c main_v1) (V m c main_v2) (V m c main_arg2) (Cert.SE.posOf h w) b cc = Cert.SE.outAt _ _ _ b cc h w
  unfold regionAt Cert.SE.outAt
  simp only [V_v1_apply m c, V_v2_apply m c, V_main_arg2 m c, Cert.SE.rowOf_posOf, Cert.SE.colOf_posOf]

/-- The run: every weakly fair execution ends with the result array at the block of the arguments, the arguments unchanged. -/
theorem run : θ_run defs (onTc (τ := τ) (main (F := Ideal))) ⟨m, fun _ => 0, ρ⟩ fun r => ∀ c : Dev nD,
      r.2.mem ((c : Thread nD τ).loc main_v5)
        = Cert.SE.out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelIdeal.SEValue

end
-- ==== Proof.RefPayload.lean ====
/-
  What one grid point of the reference stores, read at an index, over the extended reals.

  The body loads a [4, 784, 256] block (four images × positions × channels), sums it over the positions, scales by
  the literal, multiplies by the first weight matrix, rectifies, multiplies by the second weight matrix, applies the
  logistic function and scales the block (loaded a second time) by the result broadcast over the positions. At an
  index (bb, s, c) that is the loaded entry times `Cert.SE.gate` of image `bb`'s slab at channel `c`.
-/
import proofs.«108050_g2000206377233757_pallasbulk_214_10_alg».proof.Proof.Gen.ReferenceIdeal.Skeleton
import proofs.«108050_g2000206377233757_pallasbulk_214_10_alg».proof.Proof.SESpec
import Idealize.ShloMosaic.Lib.Pipeline.Value
import Idealize.ShloMosaic.Lib.ValueLayout
import Idealize.ShloMosaic.PureOps.Ideal.Laws

noncomputable section

namespace Cert.ReferenceIdeal.SEPay

open Idealize.ShloMosaic Idealize.ShloMosaic.ValueIdx Cert.ReferenceIdeal Cert.ReferenceIdeal.Gen
open scoped BigOperators

/-- The first product's dimension numbers: a plain rows × columns product over the 256 channels. -/
abbrev D1 := dot_S4x256_S256x16_S4x16_1_0_0_1_n_n
/-- The second product's dimension numbers: a plain rows × columns product over the 16 hidden units. -/
abbrev D2 := dot_S4x16_S16x256_S4x256_1_0_0_1_n_n

theorem D1_lhs0 (j : S4x16.Idx) (k : D1.contr.Idx) : (D1.lhsIdx j k 0 : ℕ) = j 0 := by
  simp [DotDims.lhsIdx, D1, dot_S4x256_S256x16_S4x16_1_0_0_1_n_n]; rfl
theorem D1_lhs1 (j : S4x16.Idx) (k : D1.contr.Idx) : (D1.lhsIdx j k 1 : ℕ) = k ⟨0, by decide⟩ := by
  simp [DotDims.lhsIdx, D1, dot_S4x256_S256x16_S4x16_1_0_0_1_n_n]; rfl
theorem D1_rhs0 (j : S4x16.Idx) (k : D1.contr.Idx) : (D1.rhsIdx j k 0 : ℕ) = k ⟨0, by decide⟩ := by
  simp [DotDims.rhsIdx, D1, dot_S4x256_S256x16_S4x16_1_0_0_1_n_n]; rfl
theorem D1_rhs1 (j : S4x16.Idx) (k : D1.contr.Idx) : (D1.rhsIdx j k 1 : ℕ) = j 1 := by
  simp [DotDims.rhsIdx, D1, dot_S4x256_S256x16_S4x16_1_0_0_1_n_n]; rfl

theorem D2_lhs0 (j : S4x256.Idx) (k : D2.contr.Idx) : (D2.lhsIdx j k 0 : ℕ) = j 0 := by
  simp [DotDims.lhsIdx, D2, dot_S4x16_S16x256_S4x256_1_0_0_1_n_n]; rfl
theorem D2_lhs1 (j : S4x256.Idx) (k : D2.contr.Idx) : (D2.lhsIdx j k 1 : ℕ) = k ⟨0, by decide⟩ := by
  simp [DotDims.lhsIdx, D2, dot_S4x16_S16x256_S4x256_1_0_0_1_n_n]; rfl
theorem D2_rhs0 (j : S4x256.Idx) (k : D2.contr.Idx) : (D2.rhsIdx j k 0 : ℕ) = k ⟨0, by decide⟩ := by
  simp [DotDims.rhsIdx, D2, dot_S4x16_S16x256_S4x256_1_0_0_1_n_n]; rfl
theorem D2_rhs1 (j : S4x256.Idx) (k : D2.contr.Idx) : (D2.rhsIdx j k 1 : ℕ) = j 1 := by
  simp [DotDims.rhsIdx, D2, dot_S4x16_S16x256_S4x256_1_0_0_1_n_n]; rfl

/-- The first product at row `bb`, column `r`: the sum over the 256 channels. -/
theorem matmul1_apply (a : FVec Ideal S4x256 .f32) (w : FVec Ideal S256x16 .f32) (bb : Fin 4) (r : Fin 16) :
    matmul D1 none a w (constant S4x16 .f32 0x00000000#32) (ix2 bb r) = ∑ c' : Fin 256, a (ix2 bb c') * w (ix2 c' r) := by
  refine (Ideal.matmul_constant_zero_apply D1 none a w (ix2 bb r)).trans ?_
  rw [← Equiv.sum_comp (contrEquiv1 D1 256 rfl rfl).symm]
  refine Finset.sum_congr rfl fun c' _ => ?_
  have hl : D1.lhsIdx (ix2 bb r) ((contrEquiv1 D1 256 rfl rfl).symm c') = ix2 bb c' := by
    funext ax; apply Fin.ext
    match ax with
    | ⟨0, _⟩ => exact D1_lhs0 _ _
    | ⟨1, _⟩ => exact (D1_lhs1 _ _).trans (contrEquiv1_symm_val D1 256 rfl rfl c')
  have hr : D1.rhsIdx (ix2 bb r) ((contrEquiv1 D1 256 rfl rfl).symm c') = ix2 c' r := by
    funext ax; apply Fin.ext
    match ax with
    | ⟨0, _⟩ => exact (D1_rhs0 _ _).trans (contrEquiv1_symm_val D1 256 rfl rfl c')
    | ⟨1, _⟩ => exact D1_rhs1 _ _
  rw [hl, hr]

/-- The second product at row `bb`, channel `c`: the sum over the 16 hidden units. -/
theorem matmul2_apply (a : FVec Ideal S4x16 .f32) (w : FVec Ideal S16x256 .f32) (bb : Fin 4) (c : Fin 256) :
    matmul D2 none a w (constant S4x256 .f32 0x00000000#32) (ix2 bb c) = ∑ r : Fin 16, a (ix2 bb r) * w (ix2 r c) := by
  refine (Ideal.matmul_constant_zero_apply D2 none a w (ix2 bb c)).trans ?_
  rw [← Equiv.sum_comp (contrEquiv1 D2 16 rfl rfl).symm]
  refine Finset.sum_congr rfl fun r _ => ?_
  have hl : D2.lhsIdx (ix2 bb c) ((contrEquiv1 D2 16 rfl rfl).symm r) = ix2 bb r := by
    funext ax; apply Fin.ext
    match ax with
    | ⟨0, _⟩ => exact D2_lhs0 _ _
    | ⟨1, _⟩ => exact (D2_lhs1 _ _).trans (contrEquiv1_symm_val D2 16 rfl rfl r)
  have hr : D2.rhsIdx (ix2 bb c) ((contrEquiv1 D2 16 rfl rfl).symm r) = ix2 r c := by
    funext ax; apply Fin.ext
    match ax with
    | ⟨0, _⟩ => exact (D2_rhs0 _ _).trans (contrEquiv1_symm_val D2 16 rfl rfl r)
    | ⟨1, _⟩ => exact D2_rhs1 _ _
  rw [hl, hr]

/-- The pooling sum at image `bb`, channel `c'`: the sum over the 784 positions. -/
theorem pool_apply (x : FVec Ideal S4x784x256 .f32) (h : S4x784x256.Reduces [1] S4x256) (bb : Fin 4) (c' : Fin 256) :
    multiReduction .add [1] S4x256 x 0x00000000#32 h (.inl rfl) rfl (ix2 bb c') = ∑ s : Fin 784, x (ix3 bb s c') := by
  refine (Ideal.multiReduction_add_single x 0x00000000#32 h (.inl rfl) rfl (ix2 bb c')).trans ?_
  refine Finset.sum_congr rfl fun s _ => ?_
  congr 1
  funext ax
  match ax with
  | ⟨0, _⟩ => rfl
  | ⟨1, _⟩ => rfl
  | ⟨2, _⟩ => rfl

/-- The body's stored value at image `bb`, position `s`, channel `c` of the block: the entry of the second load times
    the gate, computed from the first load, of image `bb` at channel `c`. -/
theorem pay_apply (x0 : Vec Ideal S4x784x256 .f32) (x1 : Vec Ideal S256x16 .f32) (x2 : Vec Ideal S16x256 .f32)
    (x3 : Vec Ideal S4x784x256 .f32) (bb : Fin 4) (s : Fin 784) (c : Fin 256) :
    k0_pay1 x0 x1 x2 x3 (ix3 bb s c)
      = x3 (ix3 bb s c) * Cert.SE.gate (fun s' c' => x0 (ix3 bb s' c')) (fun c' r => x1 (ix2 c' r)) (fun r c' => x2 (ix2 r c')) c := by
  unfold k0_pay1
  dsimp only
  rw [mulf_apply, shapeCast_self, shapeCast_self]
  refine congrArg (x3 (ix3 bb s c) * ·) ?_
  refine (broadcastTo_apply _ _ (ix3 bb s c) (ix3 bb (0 : Fin 1) c) (fun ax => ?_)).trans ?_
  · match ax with
    | ⟨0, _⟩ => rfl
    | ⟨1, _⟩ => rfl
    | ⟨2, _⟩ => rfl
  refine (shapeCast_apply _ _ (ix3 bb (0 : Fin 1) c) (ix2 bb c) ?_).trans ?_
  · rw [Shape.rowMajor_val_two, Shape.rowMajor_val_three]
    show bb.val * 256 + c.val = (bb.val * 1 + 0) * 256 + c.val
    omega
  show Ideal.logistic _ = _
  unfold Cert.SE.gate
  refine congrArg Ideal.logistic ?_
  refine (matmul2_apply _ _ bb c).trans ?_
  refine Finset.sum_congr rfl fun r _ => ?_
  refine congrArg (· * x2 (ix2 r c)) ?_
  show max _ _ = _
  refine congrArg (max · (Ideal.ofBits .f32 0x00000000#32)) ?_
  refine (matmul1_apply _ _ bb r).trans ?_
  refine Finset.sum_congr rfl fun c' _ => ?_
  refine congrArg (· * x1 (ix2 c' r)) ?_
  show _ * _ = _
  refine congrArg (· * Ideal.ofBits .f32 0x3AA72F05#32) ?_
  exact pool_apply _ _ bb c'

end Cert.ReferenceIdeal.SEPay

end
-- ==== Proof.RefValue.lean ====
/-
  The reference's whole program, read as a value over the extended reals: its result array is the
  squeeze-and-excitation block `Cert.SE.out` of its three arguments.

  The program lays the input out as [128, 784, 256] (image, position, channel) and runs thirty-two grid points of
  four images each. Point `t` reads images 4 t … 4 t + 3 at every position and channel and writes the same indices
  of the result; what it writes is the region's result array `region` read through that block, because the gate of an
  image depends on that image's own slab only. The four-image blocks cover the array, so after the run the array is
  `region`. The two host lines after the region transpose it back to (image, channel, position) and split the
  positions into rows and columns; position 28 h + w is row h, column w.
-/
import proofs.«108050_g2000206377233757_pallasbulk_214_10_alg».proof.Proof.Gen.ReferenceIdeal.Frame
import proofs.«108050_g2000206377233757_pallasbulk_214_10_alg».proof.Proof.RefPayload
import Idealize.ShloMosaic.Lib.Pipeline.Value

noncomputable section

namespace Cert.ReferenceIdeal.SEValue

open Idealize.ShloMosaic Idealize.ShloMosaic.TcCoe Idealize.ShloMosaic.ValueIdx Idealize.SL.Sem
open Cert.ReferenceIdeal Cert.ReferenceIdeal.Gen
open scoped BigOperators

variable (m : (ℓ : Loc nD τ sig) → Buf (Elt Ideal) ℓ) (ρ : Dev nD → PrngReg)

/-- The region's result at image `B`, position `s`, channel `c`, from the three arrays the region reads: the
    re-laid input [128, 784, 256] and the two weight matrices [256, 16] and [16, 256]. -/
def regionAt (A1 : S128x784x256.Idx → EReal) (A2 : S256x16.Idx → EReal) (A3 : S16x256.Idx → EReal)
    (B : Fin 128) (s : Fin 784) (c : Fin 256) : EReal :=
  A1 (ix3 B s c) * Cert.SE.gate (fun s' c' => A1 (ix3 B s' c')) (fun c' r => A2 (ix2 c' r)) (fun r c' => A3 (ix2 r c')) c

/-- The region's result array. -/
def region (A1 : S128x784x256.Idx → EReal) (A2 : S256x16.Idx → EReal) (A3 : S16x256.Idx → EReal) : S128x784x256.Idx → EReal :=
  fun i => regionAt A1 A2 A3 (i 0) (i 1) (i 2)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the input and output blocks of point `t` are the four images from `4 t`
    on, whole in the other two axes; the weight blocks are the whole matrices. -/
theorem idx_facts : ∀ t : Fin cfg0.N,
    win0_0.index t (0 : Fin 3) = t.val ∧ win0_0.index t (1 : Fin 3) = 0 ∧ win0_0.index t (2 : Fin 3) = 0
    ∧ win0_3.index t (0 : Fin 3) = t.val ∧ win0_3.index t (1 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0 ∧ t.val < 32 :=
  (by decide +kernel : ∀ t : Fin grid0.N, _)

/-- Image `bb` of point `t`'s block is image `4 t + bb` of the array. -/
def imageAt (t : Fin cfg0.N) (bb : Fin 4) : Fin 128 :=
  ⟨t.val * 4 + bb.val, by have := (idx_facts t).2.2.2.2.2.2.2.2.2.2; have := bb.isLt; omega⟩

/-- Where the entries of point `t`'s input block sit in the re-laid input. -/
theorem emb0 (t : Fin cfg0.N) (bb : Fin 4) (s : Fin 784) (cc : Fin 256) :
    ((cfg0.win 0).blk t).view.emb (ix3 bb s cc) = ix3 (imageAt t bb) s cc := by
  obtain ⟨e0, e1, e2, -⟩ := idx_facts t
  funext a; apply Fin.ext
  match a with
  | ⟨0, _⟩ => show win0_0.index t (0 : Fin 3) * 4 + 1 * bb.val = t.val * 4 + bb.val; omega
  | ⟨1, _⟩ => show win0_0.index t (1 : Fin 3) * 784 + 1 * s.val = s.val; omega
  | ⟨2, _⟩ => show win0_0.index t (2 : Fin 3) * 256 + 1 * cc.val = cc.val; omega

/-- The output block of point `t` sits over the same indices of the region's result array. -/
theorem emb3 (t : Fin cfg0.N) (bb : Fin 4) (s : Fin 784) (cc : Fin 256) :
    ((cfg0.win 3).blk t).view.emb (ix3 bb s cc) = ix3 (imageAt t bb) s cc := by
  obtain ⟨-, -, -, e0, e1, e2, -⟩ := idx_facts t
  funext a; apply Fin.ext
  match a with
  | ⟨0, _⟩ => show win0_3.index t (0 : Fin 3) * 4 + 1 * bb.val = t.val * 4 + bb.val; omega
  | ⟨1, _⟩ => show win0_3.index t (1 : Fin 3) * 784 + 1 * s.val = s.val; omega
  | ⟨2, _⟩ => show win0_3.index t (2 : Fin 3) * 256 + 1 * cc.val = cc.val; omega

/-- The weight blocks are the whole matrices. -/
theorem emb1 (t : Fin cfg0.N) (c' : Fin 256) (r : Fin 16) :
    ((cfg0.win 1).blk t).view.emb (ix2 c' r) = ix2 c' r := by
  obtain ⟨-, -, -, -, -, -, e0, e1, -⟩ := idx_facts t
  funext a; apply Fin.ext
  match a with
  | ⟨0, _⟩ => show win0_1.index t (0 : Fin 2) * 256 + 1 * c'.val = c'.val; omega
  | ⟨1, _⟩ => show win0_1.index t (1 : Fin 2) * 16 + 1 * r.val = r.val; omega
theorem emb2 (t : Fin cfg0.N) (r : Fin 16) (cc : Fin 256) :
    ((cfg0.win 2).blk t).view.emb (ix2 r cc) = ix2 r cc := by
  obtain ⟨-, -, -, -, -, -, -, -, e0, e1, -⟩ := idx_facts t
  funext a; apply Fin.ext
  match a with
  | ⟨0, _⟩ => show win0_2.index t (0 : Fin 2) * 16 + 1 * r.val = r.val; omega
  | ⟨1, _⟩ => show win0_2.index t (1 : Fin 2) * 256 + 1 * cc.val = cc.val; omega

/-- The input block of point `t` read at an index is the re-laid input there. -/
theorem read0 (c : Dev nD) (t : Fin cfg0.N) (bb : Fin 4) (s : Fin 784) (cc : Fin 256) :
    iblk m c 0 t (ix3 bb s cc) = V m c main_v1 (ix3 (imageAt t bb) s cc) := by
  show V m c main_v1 (((cfg0.win 0).blk t).view.emb (ix3 bb s cc)) = _
  rw [emb0]
theorem read1 (c : Dev nD) (t : Fin cfg0.N) (c' : Fin 256) (r : Fin 16) :
    iblk m c 1 t (ix2 c' r) = V m c main_arg1 (ix2 c' r) := by
  show V m c main_arg1 (((cfg0.win 1).blk t).view.emb (ix2 c' r)) = _
  rw [emb1]
theorem read2 (c : Dev nD) (t : Fin cfg0.N) (r : Fin 16) (cc : Fin 256) :
    iblk m c 2 t (ix2 r cc) = V m c main_arg2 (ix2 r cc) := by
  show V m c main_arg2 (((cfg0.win 2).blk t).view.emb (ix2 r cc)) = _
  rw [emb2]

/-- What point `t` writes back is block `t` of the region's result array. -/
theorem flushed3_eq (c : Dev nD) (t : Fin cfg0.N) :
    (dats m 0 c).flushed 3 t
      = ((cfg0.win 3).blk t).view.read (Elt Ideal) (region (V m c main_v1) (V m c main_arg1) (V m c main_arg2)) := by
  show (cfg0.win 3).cut (grid0.coords t) ((dats m 0 c).after 3 t) = _
  rw [after0_3]
  unfold out0_3
  rw [View.canon_unit_zero hz3]
  simp only [View.ld_unit_zero (S := S4x784x256) hz3, View.ld_unit_zero (S := S256x16) hz2, View.ld_unit_zero (S := S16x256) hz2]
  funext j
  obtain ⟨bb, s, cc, rfl⟩ : ∃ (bb : Fin 4) (s : Fin 784) (cc : Fin 256), j = ix3 bb s cc := ⟨j 0, j 1, j 2, eq_ix3 j⟩
  show k0_pay1 (iblk m c 0 t) (iblk m c 1 t) (iblk m c 2 t) (iblk m c 0 t) (ix3 bb s cc)
    = region (V m c main_v1) (V m c main_arg1) (V m c main_arg2) (((cfg0.win 3).blk t).view.emb (ix3 bb s cc))
  rw [emb3]
  refine (Cert.ReferenceIdeal.SEPay.pay_apply (iblk m c 0 t) (iblk m c 1 t) (iblk m c 2 t) (iblk m c 0 t) bb s cc).trans ?_
  simp only [read0 m c t, read1 m c t, read2 m c t]
  rfl

/-- An index of the region's result array is in point `t`'s block iff each coordinate is in the block's range. -/
theorem mem_blk3 (t : Fin cfg0.N) (i : S128x784x256.Idx) :
    i ∈ ((cfg0.win 3).blk t).view.set ↔ ∀ a : Fin 3, win0_3.index t a * S4x784x256.size a ≤ (i a).val ∧ (i a).val < win0_3.index t a * S4x784x256.size a + S4x784x256.size a := by
  show i ∈ ((View.whole main_v2).slice (win0_3.rect t)).set ↔ _
  rw [View.set_slice_whole, Rect.mem_set_unit]
  exact Iff.rfl

/-- Every index of the region's result array is in the block of the point that takes its image: point `B / 4`. -/
theorem cover3 (i : S128x784x256.Idx) :
    ∃ t : Fin cfg0.N, (cfg0.win 3).flush t = true ∧ i ∈ ((cfg0.win 3).blk t).view.set := by
  have hi0 : (i 0).val < 128 := (i 0).isLt
  have hi1 : (i 1).val < 784 := (i 1).isLt
  have hi2 : (i 2).val < 256 := (i 2).isLt
  have hN : cfg0.N = 32 := N_0
  let t : Fin cfg0.N := ⟨(i 0).val / 4, by rw [hN]; omega⟩
  have ht : t.val = (i 0).val / 4 := rfl
  obtain ⟨-, -, -, e0, e1, e2, -⟩ := idx_facts t
  refine ⟨t, flush0_3 t, ?_⟩
  rw [mem_blk3]
  intro a
  match a with
  | ⟨0, _⟩ => show win0_3.index t (0 : Fin 3) * 4 ≤ (i 0).val ∧ (i 0).val < win0_3.index t (0 : Fin 3) * 4 + 4; omega
  | ⟨1, _⟩ => show win0_3.index t (1 : Fin 3) * 784 ≤ (i 1).val ∧ (i 1).val < win0_3.index t (1 : Fin 3) * 784 + 784; omega
  | ⟨2, _⟩ => show win0_3.index t (2 : Fin 3) * 256 ≤ (i 2).val ∧ (i 2).val < win0_3.index t (2 : Fin 3) * 256 + 256; omega

/-- The region's result array after the run. -/
theorem final3 (c : Dev nD) :
    (dats m 0 c).arrAt 3 cfg0.N = region (V m c main_v1) (V m c main_arg1) (V m c main_arg2) :=
  (dats m 0 c).arrAt_eq_of_cover 3 _ (fun t _ => flushed3_eq m c t) cover3

/-- The re-laid input the region reads: rows and columns flattened to the 784 positions, then positions and channels
    exchanged. -/
theorem V_v1 (c : Dev nD) :
    (V m c main_v1 : S128x784x256.Idx → EReal)
      = transpose S128x784x256 [0, 2, 1] (shapeCast S128x256x784 (m ((c : Thread nD τ).loc main_arg0))
          Facts₀.shapeCasts_S128x256x28x28_S128x256x784) Facts₀.transposes_S128x256x784_S128x784x256_0_2_1 := by
  show StableHlo.after hostOps0 (fun b => m (c, b)) (Proc.devRef .tc main_v1) = _
  after_results
  try rfl

/-- Image `B`, position `s`, channel `cc` of the re-laid input is the input at image `B`, channel `cc`, row
    `s / 28`, column `s % 28`. -/
theorem V_v1_apply (c : Dev nD) (B : Fin 128) (s : Fin 784) (cc : Fin 256) :
    V m c main_v1 (ix3 B s cc)
      = m ((c : Thread nD τ).loc main_arg0) (ix4 B cc (Cert.SE.rowOf s) (Cert.SE.colOf s)) := by
  rw [V_v1]
  refine (transpose_ix3_021_apply _ _ B s cc).trans ?_
  refine shapeCast_apply _ _ (ix3 B cc s) (ix4 B cc (Cert.SE.rowOf s) (Cert.SE.colOf s)) ?_
  rw [Shape.rowMajor_val_four, Shape.rowMajor_val_three]
  show ((B.val * 256 + cc.val) * 28 + s.val / 28) * 28 + s.val % 28 = (B.val * 256 + cc.val) * 784 + s.val
  omega

/-- The program's result: the region's result array with positions and channels exchanged back and the positions
    split into rows and columns. -/
theorem tail_eq (c : Dev nD) :
    (Pipeline.afterTail₀ cfgs (dats m) 0 (V0 m) [hostOps1] c main_v4 : S128x256x28x28.Idx → EReal)
      = shapeCast S128x256x28x28
          (transpose S128x256x784 [0, 2, 1] ((dats m 0 c).arrAt 3 cfg0.N) Facts₀.transposes_S128x784x256_S128x256x784_0_2_1)
          Facts₀.shapeCasts_S128x256x784_S128x256x28x28 := by
  unfold Pipeline.afterTail₀
  show StableHlo.after hostOps1 _ (Proc.devRef .tc main_v4) = _
  after_results
  rw [show Pipeline.withArrays (cfgs 0).spec c (V0 m c) (fun w => (dats m 0 c).arrAt w (cfgs 0).N) (Proc.devRef .tc main_v2)
      = (dats m 0 c).arrAt 3 cfg0.N from Pipeline.withArrays_arr spec0 launch0.win.arr_inj c _ _ 3]
  rfl

/-- The program's result is the squeeze-and-excitation block of its three arguments. -/
theorem result_eq (c : Dev nD) :
    (Pipeline.afterTail₀ cfgs (dats m) 0 (V0 m) [hostOps1] c main_v4 : S128x256x28x28.Idx → EReal)
      = Cert.SE.out (m ((c : Thread nD τ).loc main_arg0)) (m ((c : Thread nD τ).loc main_arg1)) (m ((c : Thread nD τ).loc main_arg2)) := by
  rw [tail_eq, final3]
  funext i
  obtain ⟨b, cc, h, w, rfl⟩ : ∃ (b : Fin 128) (cc : Fin 256) (h w : Fin 28), i = ix4 b cc h w := ⟨i 0, i 1, i 2, i 3, eq_ix4 i⟩
  refine (shapeCast_apply _ _ (ix4 b cc h w) (ix3 b cc (Cert.SE.posOf h w)) ?_).trans ?_
  · rw [Shape.rowMajor_val_three, Shape.rowMajor_val_four]
    show (b.val * 256 + cc.val) * 784 + (h.val * 28 + w.val) = ((b.val * 256 + cc.val) * 28 + h.val) * 28 + w.val
    omega
  refine (transpose_ix3_021_apply _ _ b cc (Cert.SE.posOf h w)).trans ?_
  show regionAt (V m c main_v1) (V m c main_arg1) (V m c main_arg2) b (Cert.SE.posOf h w) cc = Cert.SE.outAt _ _ _ b cc h w
  unfold regionAt Cert.SE.outAt
  simp only [V_v1_apply m c, V_main_arg1 m c, V_main_arg2 m c, Cert.SE.rowOf_posOf, Cert.SE.colOf_posOf]

/-- The run: every weakly fair execution ends with the result array at the block of the arguments, the arguments unchanged. -/
theorem run : θ_run defs (onTc (τ := τ) (main (F := Ideal))) ⟨m, fun _ => 0, ρ⟩ fun r => ∀ c : Dev nD,
      r.2.mem ((c : Thread nD τ).loc main_v4)
        = Cert.SE.out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.ReferenceIdeal.SEValue

end
-- ==== Proof.lean ====
/-
  A squeeze-and-excitation block in two memory layouts computes one function over the extended reals.

  For every image the block pools each of the 256 channels over the 784 positions, passes the pooled vector through a
  256 × 16 linear map, a rectifier, a 16 × 256 linear map and the logistic function, and multiplies every entry of a
  channel by that channel's gate (`Cert.SE.out`, Proof/SESpec.lean). The kernel keeps the array as
  (position, image, channel), sixteen images to a grid point, with the first weight matrix transposed; the reference
  keeps it as (image, position, channel), four images to a grid point. In both, what a grid point writes depends only
  on the images it holds, so each program's result array is the block of its arguments read through its own layout
  (Proof/KernelValue.lean, Proof/RefValue.lean, over the per-point values of Proof/KernelPayload.lean and
  Proof/RefPayload.lean), and the host lines around the region undo the layout. The pooled sums, the two products
  and the gate are the same sums of the same terms on both sides, so no law beyond re-indexing a finite sum is used,
  and the finiteness of the inputs is never needed.

  The kernel's idealization rewrites nothing, so that conjunct is trivial; the three frames are the generated ones.
-/
import proofs.«108050_g2000206377233757_pallasbulk_214_10_alg».proof.Defs
import proofs.«108050_g2000206377233757_pallasbulk_214_10_alg».proof.Proof.Gen.Kernel
import proofs.«108050_g2000206377233757_pallasbulk_214_10_alg».proof.Proof.Gen.Kernel.Frame
import proofs.«108050_g2000206377233757_pallasbulk_214_10_alg».proof.Proof.Gen.KernelIdeal
import proofs.«108050_g2000206377233757_pallasbulk_214_10_alg».proof.Proof.Gen.KernelIdeal.Frame
import proofs.«108050_g2000206377233757_pallasbulk_214_10_alg».proof.Proof.Gen.ReferenceIdeal
import proofs.«108050_g2000206377233757_pallasbulk_214_10_alg».proof.Proof.Gen.ReferenceIdeal.Frame
import proofs.«108050_g2000206377233757_pallasbulk_214_10_alg».proof.Proof.Gen.Pre_finite_inputs
import proofs.«108050_g2000206377233757_pallasbulk_214_10_alg».proof.Proof.KernelValue
import proofs.«108050_g2000206377233757_pallasbulk_214_10_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- The idealization rewrote no operation. -/
theorem preserves : Cert.preserves_Kernel_KernelIdeal := trivial

/-- Both runs end with the result array at `Cert.SE.out` of the arguments, and the arguments agree. -/
theorem algebraic : Cert.algebraic_KernelIdeal_ReferenceIdeal := by
  intro m ρ m' ρ' _ hagree
  refine ⟨_, Cert.KernelIdeal.SEValue.run m ρ, ?_⟩
  refine (θ_run Cert.ReferenceIdeal.defs _ _).mono (fun _ h c => ⟨(h c).1.trans ?_, (h c).2⟩)
    (Cert.ReferenceIdeal.SEValue.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
